-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x17x17x1024 : Shape := ⟨4, ![128, 17, 17, 1024]⟩
abbrev S128x32x1024 : Shape := ⟨3, ![128, 32, 1024]⟩
abbrev S_ : Shape := ⟨0, ![]⟩

class Facts : Prop where
  bcast_S_S128x17x17x1024 : S_.BroadcastsInDim S128x17x17x1024 (![] : Fin 0 → Fin S128x17x17x1024.rank)
  reducesTo_S128x17x17x1024_S_d0_1_2_3 : S128x17x17x1024.ReducesTo [0, 1, 2, 3] S_
  h_S_ : 0 < S_.numel
  bcast_S_S128x32x1024 : S_.BroadcastsInDim S128x32x1024 (![] : Fin 0 → Fin S128x32x1024.rank)
  reducesTo_S128x32x1024_S_d0_1_2 : S128x32x1024.ReducesTo [0, 1, 2] S_

variable [Facts]

def fn {F : FTy → Type} [FloatOps F] (main_arg0 : FVec F S128x17x17x1024 .f32) (main_arg1 : FVec F S128x32x1024 .f32) : IVec S_ 1 :=
  let main_v0 : FVec F S128x17x17x1024 .f32 := Host.absf main_arg0
  let main_cst : FVec F S_ .f32 := constant S_ .f32 0x7F800000#32
  let main_v1 : FVec F S128x17x17x1024 .f32 := broadcastInDim S128x17x17x1024 ![] bcast_S_S128x17x17x1024 main_cst
  let main_v2 : IVec S128x17x17x1024 1 := cmpf .olt main_v0 main_v1
  let main_c : IVec S_ 1 := constantI S_ 1 1#1
  let main_v3 : IVec S_ 1 := (fun x v => Host.reduce IntOp.andi x v reducesTo_S128x17x17x1024_S_d0_1_2_3 h_S_) main_v2 main_c
  let main_v4 : FVec F S128x32x1024 .f32 := Host.absf main_arg1
  let main_cst_0 : FVec F S_ .f32 := constant S_ .f32 0x7F800000#32
  let main_v5 : FVec F S128x32x1024 .f32 := broadcastInDim S128x32x1024 ![] bcast_S_S128x32x1024 main_cst_0
  let main_v6 : IVec S128x32x1024 1 := cmpf .olt main_v4 main_v5
  let main_c_1 : IVec S_ 1 := constantI S_ 1 1#1
  let main_v7 : IVec S_ 1 := (fun x v => Host.reduce IntOp.andi x v reducesTo_S128x32x1024_S_d0_1_2 h_S_) main_v6 main_c_1
  let main_v8 : IVec S_ 1 := andi main_v3 main_v7
  main_v8
-- ==== Kernel.lean ====
abbrev S128x17x17x1024 : Shape := ⟨4, ![128, 17, 17, 1024]⟩
abbrev S128x32x1024 : Shape := ⟨3, ![128, 32, 1024]⟩
abbrev S128x289x1024 : Shape := ⟨3, ![128, 289, 1024]⟩
abbrev S128x1024x32 : Shape := ⟨3, ![128, 1024, 32]⟩
abbrev S8x289x1024 : Shape := ⟨3, ![8, 289, 1024]⟩
abbrev S8x32x1024 : Shape := ⟨3, ![8, 32, 1024]⟩
abbrev S8x1024x32 : Shape := ⟨3, ![8, 1024, 32]⟩
abbrev S8x289x32 : Shape := ⟨3, ![8, 289, 32]⟩
abbrev S8x289 : Shape := ⟨2, ![8, 289]⟩
abbrev S8x289x1 : Shape := ⟨3, ![8, 289, 1]⟩
abbrev S8x32 : Shape := ⟨2, ![8, 32]⟩
abbrev S8x1x32 : Shape := ⟨3, ![8, 1, 32]⟩

abbrev nBuf : Space → Nat
  | .hbm => 4
  | .vmem => 6
  | .smem => 0
  | _ => 0

abbrev bufTy : (tb : Table) → Fin (tcTables nBuf tb) → BufTy
  | .hbm, ⟨0, _⟩ => ⟨S128x17x17x1024, .f32⟩
  | .hbm, ⟨1, _⟩ => ⟨S128x32x1024, .f32⟩
  | .hbm, ⟨2, _⟩ => ⟨S128x289x1024, .f32⟩
  | .hbm, ⟨3, _⟩ => ⟨S128x1024x32, .f32⟩
  | .local _ .vmem, ⟨0, _⟩ => ⟨S8x289x1024, .f32⟩
  | .local _ .vmem, ⟨1, _⟩ => ⟨S8x289x1024, .f32⟩
  | .local _ .vmem, ⟨2, _⟩ => ⟨S8x32x1024, .f32⟩
  | .local _ .vmem, ⟨3, _⟩ => ⟨S8x32x1024, .f32⟩
  | .local _ .vmem, ⟨4, _⟩ => ⟨S8x1024x32, .f32⟩
  | .local _ .vmem, ⟨5, _⟩ => ⟨S8x1024x32, .f32⟩
  | _, _ => ⟨S128x17x17x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x289x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x17x17x1024_S128x289x1024 : S128x17x17x1024.ShapeCasts S128x289x1024
  inb_S8x289x1024_S8x289x1024_0_0_0 : ∀ a, (![0, 0, 0] : Fin 3 → Nat) a + S8x289x1024.size a ≤ S8x289x1024.size a
  h_S8x289x1024 : 0 < S8x289x1024.numel
  shapeCasts_S8x289x1024_S8x289x1024 : S8x289x1024.ShapeCasts S8x289x1024
  inb_S8x32x1024_S8x32x1024_0_0_0 : ∀ a, (![0, 0, 0] : Fin 3 → Nat) a + S8x32x1024.size a ≤ S8x32x1024.size a
  h_S8x32x1024 : 0 < S8x32x1024.numel
  bitsLt_bf16_f32 : FTy.bits .bf16 < FTy.bits .f32
  reduces_S8x289x32_S8x289 : S8x289x32.Reduces [2] S8x289
  shapeCasts_S8x289_S8x289x1 : S8x289.ShapeCasts S8x289x1
  broadcasts_S8x289x1_S8x289x32 : S8x289x1.Broadcasts S8x289x32
  reduces_S8x289x32_S8x32 : S8x289x32.Reduces [1] S8x32
  shapeCasts_S8x32_S8x1x32 : S8x32.ShapeCasts S8x1x32
  broadcasts_S8x1x32_S8x289x32 : S8x1x32.Broadcasts S8x289x32
  transposes_S8x32x1024_p0_2_1_S8x1024x32 : S8x32x1024.Transposes [0, 2, 1] S8x1024x32
  inb_S8x1024x32_S8x1024x32_0_0_0 : ∀ a, (![0, 0, 0] : Fin 3 → Nat) a + S8x1024x32.size a ≤ S8x1024x32.size a
  h_S8x1024x32 : 0 < S8x1024x32.numel
  dot_S8x289x1024_S8x32x1024_S8x289x32_2_2_1_1_0_0_wf : DotDims.WF S8x289x1024 S8x32x1024 S8x289x32 [2] [2] [1] [1] [0] [0]
  dot_S8x289x32_S8x289x1024_S8x32x1024_1_1_2_2_0_0_wf : DotDims.WF S8x289x32 S8x289x1024 S8x32x1024 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x289x1024.size a ≤ S128x289x1024.size a
  hwx0_0 : ∀ i : grid0.Coords, EltTy.bits .f32 = 32 ∨ (Rect.block (s := S128x289x1024) S8x289x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x1024.size a ≤ S128x32x1024.size a
  hwx0_1 : ∀ i : grid0.Coords, EltTy.bits .f32 = 32 ∨ (Rect.block (s := S128x32x1024) S8x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x32.size a ≤ S128x1024x32.size a
  hwx0_2 : ∀ i : grid0.Coords, EltTy.bits .f32 = 32 ∨ (Rect.block (s := S128x1024x32) S8x1024x32.size (cc0_transform_2 i) (hinb0_2 i)).WholeWords (EltTy.packing .f32)

variable [Facts₀]

def dot_S8x289x1024_S8x32x1024_S8x289x32_2_2_1_1_0_0 : DotDims S8x289x1024 S8x32x1024 S8x289x32 where
  lhsContracting := [2]
  rhsContracting := [2]
  lhsNonContracting := [1]
  rhsNonContracting := [1]
  lhsBatch := [0]
  rhsBatch := [0]
  wf := dot_S8x289x1024_S8x32x1024_S8x289x32_2_2_1_1_0_0_wf
def dot_S8x289x32_S8x289x1024_S8x32x1024_1_1_2_2_0_0 : DotDims S8x289x32 S8x289x1024 S8x32x1024 where
  lhsContracting := [1]
  rhsContracting := [1]
  lhsNonContracting := [2]
  rhsNonContracting := [2]
  lhsBatch := [0]
  rhsBatch := [0]
  wf := dot_S8x289x32_S8x289x1024_S8x32x1024_1_1_2_2_0_0_wf

abbrev win0_0 : Pipeline.Window sig grid0 :=
  Pipeline.Window.ofSpec (Memref.whole main_v0) S8x289x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x17x17x1024 : Shape := ⟨4, ![128, 17, 17, 1024]⟩
abbrev S128x32x1024 : Shape := ⟨3, ![128, 32, 1024]⟩
abbrev S128x289x1024 : Shape := ⟨3, ![128, 289, 1024]⟩
abbrev S128x289x32 : Shape := ⟨3, ![128, 289, 32]⟩
abbrev S_ : Shape := ⟨0, ![]⟩
abbrev S128x289 : Shape := ⟨2, ![128, 289]⟩
abbrev S128x289x1 : Shape := ⟨3, ![128, 289, 1]⟩
abbrev S128x32x289 : Shape := ⟨3, ![128, 32, 289]⟩
abbrev S128x32 : Shape := ⟨2, ![128, 32]⟩
abbrev S128x32x1 : Shape := ⟨3, ![128, 32, 1]⟩
abbrev S128x1024x32 : Shape := ⟨3, ![128, 1024, 32]⟩

abbrev nBuf : Space → Nat
  | .hbm => 37
  | .vmem => 0
  | .smem => 0
  | _ => 0

abbrev bufTy : (tb : Table) → Fin (tcTables nBuf tb) → BufTy
  | .hbm, ⟨0, _⟩ => ⟨S128x17x17x1024, .f32⟩
  | .hbm, ⟨1, _⟩ => ⟨S128x32x1024, .f32⟩
  | .hbm, ⟨2, _⟩ => ⟨S128x289x1024, .f32⟩
  | .hbm, ⟨3, _⟩ => ⟨S128x289x32, .f32⟩
  | .hbm, ⟨4, _⟩ => ⟨S_, .f32⟩
  | .hbm, ⟨5, _⟩ => ⟨S128x289, .f32⟩
  | .hbm, ⟨6, _⟩ => ⟨S_, .f32⟩
  | .hbm, ⟨7, _⟩ => ⟨S128x289, .f32⟩
  | .hbm, ⟨8, _⟩ => ⟨S128x289, .f32⟩
  | .hbm, ⟨9, _⟩ => ⟨S128x289x1, .f32⟩
  | .hbm, ⟨10, _⟩ => ⟨S128x289x32, .f32⟩
  | .hbm, ⟨11, _⟩ => ⟨S128x289x32, .f32⟩
  | .hbm, ⟨12, _⟩ => ⟨S128x289x32, .f32⟩
  | .hbm, ⟨13, _⟩ => ⟨S_, .f32⟩
  | .hbm, ⟨14, _⟩ => ⟨S128x289, .f32⟩
  | .hbm, ⟨15, _⟩ => ⟨S128x289x1, .f32⟩
  | .hbm, ⟨16, _⟩ => ⟨S128x289x32, .f32⟩
  | .hbm, ⟨17, _⟩ => ⟨S128x289x32, .f32⟩
  | .hbm, ⟨18, _⟩ => ⟨S128x32x289, .f32⟩
  | .hbm, ⟨19, _⟩ => ⟨S_, .f32⟩
  | .hbm, ⟨20, _⟩ => ⟨S128x32x289, .f32⟩
  | .hbm, ⟨21, _⟩ => ⟨S128x32x289, .f32⟩
  | .hbm, ⟨22, _⟩ => ⟨S_, .f32⟩
  | .hbm, ⟨23, _⟩ => ⟨S128x32, .f32⟩
  | .hbm, ⟨24, _⟩ => ⟨S_, .f32⟩
  | .hbm, ⟨25, _⟩ => ⟨S128x32, .f32⟩
  | .hbm, ⟨26, _⟩ => ⟨S128x32, .f32⟩
  | .hbm, ⟨27, _⟩ => ⟨S128x32x1, .f32⟩
  | .hbm, ⟨28, _⟩ => ⟨S128x32x289, .f32⟩
  | .hbm, ⟨29, _⟩ => ⟨S128x32x289, .f32⟩
  | .hbm, ⟨30, _⟩ => ⟨S128x32x289, .f32⟩
  | .hbm, ⟨31, _⟩ => ⟨S_, .f32⟩
  | .hbm, ⟨32, _⟩ => ⟨S128x32, .f32⟩
  | .hbm, ⟨33, _⟩ => ⟨S128x32x1, .f32⟩
  | .hbm, ⟨34, _⟩ => ⟨S128x32x289, .f32⟩
  | .hbm, ⟨35, _⟩ => ⟨S128x32x289, .f32⟩
  | .hbm, ⟨36, _⟩ => ⟨S128x1024x32, .f32⟩
  | _, _ => ⟨S128x17x17x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S128x17x17x1024_S128x289x1024 : S128x17x17x1024.ShapeCasts S128x289x1024
  reducesTo_S128x289x32_S128x289_d2 : S128x289x32.ReducesTo [2] S128x289
  h_S_ : 0 < S_.numel
  bcast_S_S128x289 : S_.BroadcastsInDim S128x289 (![] : Fin 0 → Fin S128x289.rank)
  bcast_S128x289_S128x289x1_0_1 : S128x289.BroadcastsInDim S128x289x1 (![0, 1] : Fin 2 → Fin S128x289x1.rank)
  bcast_S128x289x1_S128x289x32_0_1_2 : S128x289x1.BroadcastsInDim S128x289x32 (![0, 1, 2] : Fin 3 → Fin S128x289x32.rank)
  transposes_S128x289x32_S128x32x289_0_2_1 : S128x289x32.Transposes [0, 2, 1] S128x32x289
  bcast_S_S128x32x289 : S_.BroadcastsInDim S128x32x289 (![] : Fin 0 → Fin S128x32x289.rank)
  reducesTo_S128x32x289_S128x32_d2 : S128x32x289.ReducesTo [2] S128x32
  bcast_S_S128x32 : S_.BroadcastsInDim S128x32 (![] : Fin 0 → Fin S128x32.rank)
  bcast_S128x32_S128x32x1_0_1 : S128x32.BroadcastsInDim S128x32x1 (![0, 1] : Fin 2 → Fin S128x32x1.rank)
  bcast_S128x32x1_S128x32x289_0_1_2 : S128x32x1.BroadcastsInDim S128x32x289 (![0, 1, 2] : Fin 3 → Fin S128x32x289.rank)
  dot_S128x289x1024_S128x32x1024_S128x289x32_2_2_1_1_0_0_wf : DotDims.WF S128x289x1024 S128x32x1024 S128x289x32 [2] [2] [1] [1] [0] [0]
  dot_S128x289x1024_S128x32x289_S128x1024x32_1_2_2_1_0_0_wf : DotDims.WF S128x289x1024 S128x32x289 S128x1024x32 [1] [2] [2] [1] [0] [0]

variable [Facts₀]

def dot_S128x289x1024_S128x32x1024_S128x289x32_2_2_1_1_0_0 : DotDims S128x289x1024 S128x32x1024 S128x289x32 where
  lhsContracting := [2]
  rhsContracting := [2]
  lhsNonContracting := [1]
  rhsNonContracting := [1]
  lhsBatch := [0]
  rhsBatch := [0]
  wf := dot_S128x289x1024_S128x32x1024_S128x289x32_2_2_1_1_0_0_wf
def dot_S128x289x1024_S128x32x289_S128x1024x32_1_2_2_1_0_0 : DotDims S128x289x1024 S128x32x289 S128x1024x32 where
  lhsContracting := [1]
  rhsContracting := [2]
  lhsNonContracting := [2]
  rhsNonContracting := [1]
  lhsBatch := [0]
  rhsBatch := [0]
  wf := dot_S128x289x1024_S128x32x289_S128x1024x32_1_2_2_1_0_0_wf

class Facts : Prop extends Facts₀ where

variable [Facts]
-- ==== Proof.Attention.lean ====
/-
  Word–region attention of one image, as plain functions on the extended reals.

  An image has 289 regions with 1024 features each (`a n d`), a caption has 32 words with 1024 features each
  (`w t d`).  The score of region `n` against word `t` is the inner product `Σ_d a n d · w t d`.  The scores are
  normalised twice by a softmax — first over the words of each region, then, after multiplication by the factor 4,
  over the regions of each word — and the result is the attention-weighted sum of the region features,
  `out d t = Σ_n p n t · a n d`.

  Each softmax is written as both programs compute it: the maximum along the axis (a fold of `max` that starts
  from `-∞`, compared with `-∞` once more), the exponential of the difference, the sum along the axis, the
  quotient.  Nothing here needs the entries to be finite.
-/
import Idealize.ShloMosaic.PureOps.Ideal
import Idealize.ShloMosaic.Lib.ValueIdx

noncomputable section

namespace Cert.WordRegion

open Idealize.ShloMosaic Idealize.ShloMosaic.ValueIdx

/-- The float pattern of `-∞`: the value both maxima start from. -/
abbrev negInf : EReal := Ideal.ofBits .f32 0xFF800000#32

/-- The float pattern of `4`: the factor between the two softmaxes. -/
abbrev gamma : EReal := Ideal.ofBits .f32 0x40800000#32

/-- Region–word scores: `s n t = Σ_d a n d · w t d`. -/
def score (a : Fin 289 → Fin 1024 → EReal) (w : Fin 32 → Fin 1024 → EReal) (n : Fin 289) (t : Fin 32) : EReal :=
  ∑ d : Fin 1024, a n d * w t d

/-- The largest entry of row `n` over the 32 words. -/
def maxWords (s : Fin 289 → Fin 32 → EReal) (n : Fin 289) : EReal :=
  max negInf ((Finset.univ : Finset (Fin 32)).fold max negInf fun t => s n t)

/-- The softmax over the words of each region: `exp (s n t − max) / Σ_t' exp (s n t' − max)`. -/
def softWords (s : Fin 289 → Fin 32 → EReal) (n : Fin 289) (t : Fin 32) : EReal :=
  Ideal.div (Ideal.exp (s n t - maxWords s n)) (∑ t' : Fin 32, Ideal.exp (s n t' - maxWords s n))

/-- The largest entry of column `t` over the 289 regions. -/
def maxRegions (q : Fin 289 → Fin 32 → EReal) (t : Fin 32) : EReal :=
  max negInf ((Finset.univ : Finset (Fin 289)).fold max negInf fun n => q n t)

/-- The softmax over the regions of each word: `exp (q n t − max) / Σ_n' exp (q n' t − max)`. -/
def softRegions (q : Fin 289 → Fin 32 → EReal) (n : Fin 289) (t : Fin 32) : EReal :=
  Ideal.div (Ideal.exp (q n t - maxRegions q t)) (∑ n' : Fin 289, Ideal.exp (q n' t - maxRegions q t))

/-- The attention weights: the softmax over regions of 4 times the softmax over words of the scores. -/
def weights (a : Fin 289 → Fin 1024 → EReal) (w : Fin 32 → Fin 1024 → EReal) (n : Fin 289) (t : Fin 32) : EReal :=
  softRegions (fun n t => gamma * softWords (score a w) n t) n t

/-- The attended region features of one image: `out d t = Σ_n p n t · a n d`, `p` the attention weights. -/
def attend (a : Fin 289 → Fin 1024 → EReal) (w : Fin 32 → Fin 1024 → EReal) (d : Fin 1024) (t : Fin 32) : EReal :=
  ∑ n : Fin 289, weights a w n t * a n d

/-- Image `b`'s region features out of a stack of `B` images. -/
abbrev regionsOf {B : Nat} (x : (⟨3, ![B, 289, 1024]⟩ : Shape).Idx → EReal) (b : Fin B) : Fin 289 → Fin 1024 → EReal :=
  fun n d => x (ix3 b n d)

/-- Caption `b`'s word features out of a stack of `B` captions. -/
abbrev wordsOf {B : Nat} (y : (⟨3, ![B, 32, 1024]⟩ : Shape).Idx → EReal) (b : Fin B) : Fin 32 → Fin 1024 → EReal :=
  fun t d => y (ix3 b t d)

/-- The whole result for a stack of `B` image–caption pairs: entry `(b, d, t)` is `attend` of pair `b` at `(d, t)`. -/
def result {B : Nat} (x : (⟨3, ![B, 289, 1024]⟩ : Shape).Idx → EReal) (y : (⟨3, ![B, 32, 1024]⟩ : Shape).Idx → EReal) :
    (⟨3, ![B, 1024, 32]⟩ : Shape).Idx → EReal :=
  fun i => attend (regionsOf x (i 0)) (wordsOf y (i 0)) (i 1) (i 2)

/-- The result at an index written by its coordinates. -/
theorem result_ix3 {B : Nat} (x : (⟨3, ![B, 289, 1024]⟩ : Shape).Idx → EReal) (y : (⟨3, ![B, 32, 1024]⟩ : Shape).Idx → EReal)
    (b : Fin B) (d : Fin 1024) (t : Fin 32) :
    result x y (ix3 b d t) = attend (regionsOf x b) (wordsOf y b) d t := rfl

end Cert.WordRegion

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.KernelBody.lean ====
/-
  What the kernel body stores, read at an index.

  The body works on a block of 8 image–caption pairs at once.  Its stored value is, in order: the scores (a matrix
  product contracting the 1024 features), a softmax over the last axis (the words), the product with 4, a softmax
  over the middle axis (the regions), and a second matrix product contracting the 289 regions, transposed to
  `[8, 1024, 32]`.  Rounding to the narrower float format on the way into each product is the identity on the
  extended reals, and both products accumulate into zero.

  Here the stored value is cut into those stages (the cut is the same term: `payload_eq` is by unfolding), each
  stage is read at an index written by its coordinates, and the stages are put together: entry `(b, d, t)` of the
  stored value is `attend` of pair `b`'s rows at `(d, t)` — every pair of the block is treated by itself.
-/
import proofs.«119860_j85280870629865_1_alg».proof.Proof.Gen.KernelIdeal.Skeleton
import proofs.«119860_j85280870629865_1_alg».proof.Proof.Attention
import proofs.«119860_j85280870629865_1_alg».proof.Proof.LibKeepdims
import Idealize.ShloMosaic.Lib.ValueLayout

noncomputable section

namespace Cert.KernelIdeal.Body

open Cert.KernelIdeal Cert.KernelIdeal.Facts₀ Idealize.ShloMosaic Idealize.ShloMosaic.ValueIdx
open Idealize.ShloMosaic.Keepdims Cert.WordRegion

/-! ## The stages -/

/-- The first product's dimension record: batch axis 0, features contracted. -/
abbrev dotScores : DotDims S8x289x1024 S8x32x1024 S8x289x32 := dot_S8x289x1024_S8x32x1024_S8x289x32_2_2_1_1_0_0

/-- The second product's dimension record: batch axis 0, regions contracted. -/
abbrev dotAttend : DotDims S8x289x32 S8x289x1024 S8x32x1024 := dot_S8x289x32_S8x289x1024_S8x32x1024_1_1_2_2_0_0

/-- The scores of the block's 8 pairs. -/
def scores (x0 : Vec Ideal S8x289x1024 .f32) (x1 : Vec Ideal S8x32x1024 .f32) : FVec Ideal S8x289x32 .f32 :=
  matmul dotScores none
    (truncf .bf16 (shapeCast S8x289x1024 x0 shapeCasts_S8x289x1024_S8x289x1024) bitsLt_bf16_f32)
    (truncf .bf16 x1 bitsLt_bf16_f32) (constant S8x289x32 .f32 0x00000000#32)

/-- The maximum over the words, put back over the whole block. -/
def maxOverWords (v : FVec Ideal S8x289x32 .f32) : FVec Ideal S8x289x32 .f32 :=
  broadcastTo S8x289x32 (shapeCast S8x289x1 (maximumf (broadcast S8x289 (Scalar.ofBits .f32 0xFF800000#32))
    (multiReduction .maximumf [2] S8x289 v 0xFF800000#32 reduces_S8x289x32_S8x289 (.inl rfl) rfl))
    shapeCasts_S8x289_S8x289x1) broadcasts_S8x289x1_S8x289x32

/-- The sum over the words, put back over the whole block. -/
def sumOverWords (e : FVec Ideal S8x289x32 .f32) : FVec Ideal S8x289x32 .f32 :=
  broadcastTo S8x289x32 (shapeCast S8x289x1
    (multiReduction .add [2] S8x289 e 0x00000000#32 reduces_S8x289x32_S8x289 (.inl rfl) rfl)
    shapeCasts_S8x289_S8x289x1) broadcasts_S8x289x1_S8x289x32

/-- The maximum over the regions, put back over the whole block. -/
def maxOverRegions (v : FVec Ideal S8x289x32 .f32) : FVec Ideal S8x289x32 .f32 :=
  broadcastTo S8x289x32 (shapeCast S8x1x32 (maximumf (broadcast S8x32 (Scalar.ofBits .f32 0xFF800000#32))
    (multiReduction .maximumf [1] S8x32 v 0xFF800000#32 reduces_S8x289x32_S8x32 (.inl rfl) rfl))
    shapeCasts_S8x32_S8x1x32) broadcasts_S8x1x32_S8x289x32

/-- The sum over the regions, put back over the whole block. -/
def sumOverRegions (e : FVec Ideal S8x289x32 .f32) : FVec Ideal S8x289x32 .f32 :=
  broadcastTo S8x289x32 (shapeCast S8x1x32
    (multiReduction .add [1] S8x32 e 0x00000000#32 reduces_S8x289x32_S8x32 (.inl rfl) rfl)
    shapeCasts_S8x32_S8x1x32) broadcasts_S8x1x32_S8x289x32

/-- The block's softmax over the words. -/
def softmaxWords (v : FVec Ideal S8x289x32 .f32) : FVec Ideal S8x289x32 .f32 :=
  divf (exp (subf v (maxOverWords v))) (sumOverWords (exp (subf v (maxOverWords v))))

/-- The block's softmax over the regions. -/
def softmaxRegions (q : FVec Ideal S8x289x32 .f32) : FVec Ideal S8x289x32 .f32 :=
  divf (exp (subf q (maxOverRegions q))) (sumOverRegions (exp (subf q (maxOverRegions q))))

/-- The weighted sum of the region features, laid out `[8, 1024, 32]`. -/
def weighted (x0 : Vec Ideal S8x289x1024 .f32) (p : FVec Ideal S8x289x32 .f32) : FVec Ideal S8x1024x32 .f32 :=
  transpose S8x1024x32 [0, 2, 1] (matmul dotAttend none (truncf .bf16 p bitsLt_bf16_f32)
    (truncf .bf16 (shapeCast S8x289x1024 x0 shapeCasts_S8x289x1024_S8x289x1024) bitsLt_bf16_f32)
    (constant S8x32x1024 .f32 0x00000000#32)) transposes_S8x32x1024_p0_2_1_S8x1024x32

/-- The body's stored value is these stages, one after the other. -/
theorem payload_eq (x0 : Vec Ideal S8x289x1024 .f32) (x1 : Vec Ideal S8x32x1024 .f32) :
    Gen.k0_pay1 x0 x1 = weighted x0 (softmaxRegions (mulf (broadcast S8x289x32 (Scalar.ofBits .f32 0x40800000#32))
      (softmaxWords (scores x0 x1)))) := rfl

/-! ## The two products' operand indices -/

theorem scores_lhs_0 (i : S8x289x32.Idx) (q : dotScores.contr.Idx) : (dotScores.lhsIdx i q 0).val = (i 0).val := by
  unfold DotDims.lhsIdx
  rw [dif_pos (show (0 : Fin S8x289x1024.rank) ∈ dotScores.lhsBatch by decide)]
  rfl
theorem scores_lhs_1 (i : S8x289x32.Idx) (q : dotScores.contr.Idx) : (dotScores.lhsIdx i q 1).val = (i 1).val := by
  unfold DotDims.lhsIdx
  rw [dif_neg (show ¬(1 : Fin S8x289x1024.rank) ∈ dotScores.lhsBatch by decide),
    dif_pos (show (1 : Fin S8x289x1024.rank) ∈ dotScores.lhsNonContracting by decide)]
  rfl
theorem scores_lhs_2 (i : S8x289x32.Idx) (q : dotScores.contr.Idx) :
    (dotScores.lhsIdx i q 2).val = (q ⟨0, by decide⟩).val :=
  dotScores.lhsIdx_val_of_single rfl i q
theorem scores_rhs_0 (i : S8x289x32.Idx) (q : dotScores.contr.Idx) : (dotScores.rhsIdx i q 0).val = (i 0).val := by
  unfold DotDims.rhsIdx
  rw [dif_pos (show (0 : Fin S8x32x1024.rank) ∈ dotScores.rhsBatch by decide)]
  rfl
theorem scores_rhs_1 (i : S8x289x32.Idx) (q : dotScores.contr.Idx) : (dotScores.rhsIdx i q 1).val = (i 2).val := by
  unfold DotDims.rhsIdx
  rw [dif_neg (show ¬(1 : Fin S8x32x1024.rank) ∈ dotScores.rhsBatch by decide),
    dif_pos (show (1 : Fin S8x32x1024.rank) ∈ dotScores.rhsNonContracting by decide)]
  rfl
theorem scores_rhs_2 (i : S8x289x32.Idx) (q : dotScores.contr.Idx) :
    (dotScores.rhsIdx i q 2).val = (q ⟨0, by decide⟩).val :=
  dotScores.rhsIdx_val_of_single rfl i q

theorem attend_lhs_0 (i : S8x32x1024.Idx) (q : dotAttend.contr.Idx) : (dotAttend.lhsIdx i q 0).val = (i 0).val := by
  unfold DotDims.lhsIdx
  rw [dif_pos (show (0 : Fin S8x289x32.rank) ∈ dotAttend.lhsBatch by decide)]
  rfl
theorem attend_lhs_1 (i : S8x32x1024.Idx) (q : dotAttend.contr.Idx) :
    (dotAttend.lhsIdx i q 1).val = (q ⟨0, by decide⟩).val :=
  dotAttend.lhsIdx_val_of_single rfl i q
theorem attend_lhs_2 (i : S8x32x1024.Idx) (q : dotAttend.contr.Idx) : (dotAttend.lhsIdx i q 2).val = (i 1).val := by
  unfold DotDims.lhsIdx
  rw [dif_neg (show ¬(2 : Fin S8x289x32.rank) ∈ dotAttend.lhsBatch by decide),
    dif_pos (show (2 : Fin S8x289x32.rank) ∈ dotAttend.lhsNonContracting by decide)]
  rfl
theorem attend_rhs_0 (i : S8x32x1024.Idx) (q : dotAttend.contr.Idx) : (dotAttend.rhsIdx i q 0).val = (i 0).val := by
  unfold DotDims.rhsIdx
  rw [dif_pos (show (0 : Fin S8x289x1024.rank) ∈ dotAttend.rhsBatch by decide)]
  rfl
theorem attend_rhs_1 (i : S8x32x1024.Idx) (q : dotAttend.contr.Idx) :
    (dotAttend.rhsIdx i q 1).val = (q ⟨0, by decide⟩).val :=
  dotAttend.rhsIdx_val_of_single rfl i q
theorem attend_rhs_2 (i : S8x32x1024.Idx) (q : dotAttend.contr.Idx) : (dotAttend.rhsIdx i q 2).val = (i 2).val := by
  unfold DotDims.rhsIdx
  rw [dif_neg (show ¬(2 : Fin S8x289x1024.rank) ∈ dotAttend.rhsBatch by decide),
    dif_pos (show (2 : Fin S8x289x1024.rank) ∈ dotAttend.rhsNonContracting by decide)]
  rfl

/-! ## Each stage at an index -/

/-- The scores of pair `b` are the inner products of its region and word features. -/
theorem scores_apply (x0 : Vec Ideal S8x289x1024 .f32) (x1 : Vec Ideal S8x32x1024 .f32) (b : Fin 8) (n : Fin 289) (t : Fin 32) :
    scores x0 x1 (ix3 b n t) = score (regionsOf x0 b) (wordsOf x1 b) n t := by
  unfold scores score
  refine (Ideal.matmul_constant_zero_apply dotScores none _ _ (ix3 b n t)).trans ?_
  rw [← Equiv.sum_comp (contrEquiv1 dotScores 1024 rfl rfl).symm]
  refine Finset.sum_congr rfl fun k _ => ?_
  have hk := contrEquiv1_symm_val dotScores 1024 rfl rfl k
  have el : dotScores.lhsIdx (ix3 b n t) ((contrEquiv1 dotScores 1024 rfl rfl).symm k) = ix3 b n k :=
    funext fun a => Fin.ext (by
      match a with
      | ⟨0, _⟩ => exact scores_lhs_0 _ _
      | ⟨1, _⟩ => exact scores_lhs_1 _ _
      | ⟨2, _⟩ => exact (scores_lhs_2 _ _).trans hk)
  have er : dotScores.rhsIdx (ix3 b n t) ((contrEquiv1 dotScores 1024 rfl rfl).symm k) = ix3 b t k :=
    funext fun a => Fin.ext (by
      match a with
      | ⟨0, _⟩ => exact scores_rhs_0 _ _
      | ⟨1, _⟩ => exact scores_rhs_1 _ _
      | ⟨2, _⟩ => exact (scores_rhs_2 _ _).trans hk)
  rw [el, er]
  exact congrArg (· * x1 (ix3 b t k)) (congrFun (shapeCast_self x0 _) (ix3 b n k))

/-- The weighted sum at `(b, d, t)`: the sum over the regions of the weight at `(b, n, t)` times the feature at `(b, n, d)`. -/
theorem weighted_apply (x0 : Vec Ideal S8x289x1024 .f32) (p : FVec Ideal S8x289x32 .f32) (b : Fin 8) (d : Fin 1024) (t : Fin 32) :
    weighted x0 p (ix3 b d t) = ∑ n : Fin 289, p (ix3 b n t) * x0 (ix3 b n d) := by
  unfold weighted
  refine (transpose_ix3_021_apply _ transposes_S8x32x1024_p0_2_1_S8x1024x32 b d t).trans ?_
  refine (Ideal.matmul_constant_zero_apply dotAttend none _ _ (ix3 b t d)).trans ?_
  rw [← Equiv.sum_comp (contrEquiv1 dotAttend 289 rfl rfl).symm]
  refine Finset.sum_congr rfl fun k _ => ?_
  have hk := contrEquiv1_symm_val dotAttend 289 rfl rfl k
  have el : dotAttend.lhsIdx (ix3 b t d) ((contrEquiv1 dotAttend 289 rfl rfl).symm k) = ix3 b k t :=
    funext fun a => Fin.ext (by
      match a with
      | ⟨0, _⟩ => exact attend_lhs_0 _ _
      | ⟨1, _⟩ => exact (attend_lhs_1 _ _).trans hk
      | ⟨2, _⟩ => exact attend_lhs_2 _ _)
  have er : dotAttend.rhsIdx (ix3 b t d) ((contrEquiv1 dotAttend 289 rfl rfl).symm k) = ix3 b k d :=
    funext fun a => Fin.ext (by
      match a with
      | ⟨0, _⟩ => exact attend_rhs_0 _ _
      | ⟨1, _⟩ => exact (attend_rhs_1 _ _).trans hk
      | ⟨2, _⟩ => exact attend_rhs_2 _ _)
  rw [el, er]
  exact congrArg (p (ix3 b k t) * ·) (congrFun (shapeCast_self x0 _) (ix3 b k d))

/-- The maximum over the words at `(b, n, t)`: the fold of `max` over row `(b, n)`, whatever `t`. -/
theorem maxOverWords_apply (v : FVec Ideal S8x289x32 .f32) (b : Fin 8) (n : Fin 289) (t : Fin 32) :
    maxOverWords v (ix3 b n t) = max negInf ((Finset.univ : Finset (Fin 32)).fold max negInf fun t' => v (ix3 b n t')) := by
  unfold maxOverWords
  refine (broadcastTo_ab1_abc_apply _ broadcasts_S8x289x1_S8x289x32 b n t).trans ?_
  refine (shapeCast_ab_ab1_apply _ shapeCasts_S8x289_S8x289x1 b n 0).trans ?_
  exact congrArg (max negInf) (multiReduction_max_last v _ reduces_S8x289x32_S8x289 _ _ b n)

/-- The sum over the words at `(b, n, t)`: the sum of row `(b, n)`. -/
theorem sumOverWords_apply (e : FVec Ideal S8x289x32 .f32) (b : Fin 8) (n : Fin 289) (t : Fin 32) :
    sumOverWords e (ix3 b n t) = ∑ t' : Fin 32, e (ix3 b n t') := by
  unfold sumOverWords
  refine (broadcastTo_ab1_abc_apply _ broadcasts_S8x289x1_S8x289x32 b n t).trans ?_
  refine (shapeCast_ab_ab1_apply _ shapeCasts_S8x289_S8x289x1 b n 0).trans ?_
  exact multiReduction_add_last e _ reduces_S8x289x32_S8x289 _ _ b n

/-- The maximum over the regions at `(b, n, t)`: the fold of `max` over column `(b, t)`, whatever `n`. -/
theorem maxOverRegions_apply (v : FVec Ideal S8x289x32 .f32) (b : Fin 8) (n : Fin 289) (t : Fin 32) :
    maxOverRegions v (ix3 b n t) = max negInf ((Finset.univ : Finset (Fin 289)).fold max negInf fun n' => v (ix3 b n' t)) := by
  unfold maxOverRegions
  refine (broadcastTo_a1c_abc_apply _ broadcasts_S8x1x32_S8x289x32 b n t).trans ?_
  refine (shapeCast_ac_a1c_apply _ shapeCasts_S8x32_S8x1x32 b 0 t).trans ?_
  exact congrArg (max negInf) (multiReduction_max_middle v _ reduces_S8x289x32_S8x32 _ _ b t)

/-- The sum over the regions at `(b, n, t)`: the sum of column `(b, t)`. -/
theorem sumOverRegions_apply (e : FVec Ideal S8x289x32 .f32) (b : Fin 8) (n : Fin 289) (t : Fin 32) :
    sumOverRegions e (ix3 b n t) = ∑ n' : Fin 289, e (ix3 b n' t) := by
  unfold sumOverRegions
  refine (broadcastTo_a1c_abc_apply _ broadcasts_S8x1x32_S8x289x32 b n t).trans ?_
  refine (shapeCast_ac_a1c_apply _ shapeCasts_S8x32_S8x1x32 b 0 t).trans ?_
  exact multiReduction_add_middle e _ reduces_S8x289x32_S8x32 _ _ b t

/-- The block's softmax over the words, on pair `b`, is the softmax over the words of pair `b`'s entries. -/
theorem softmaxWords_apply (v : FVec Ideal S8x289x32 .f32) (b : Fin 8) (s : Fin 289 → Fin 32 → EReal)
    (hv : ∀ n t, v (ix3 b n t) = s n t) (n : Fin 289) (t : Fin 32) :
    softmaxWords v (ix3 b n t) = softWords s n t := by
  have hm : ∀ n t, maxOverWords v (ix3 b n t) = maxWords s n := fun n t => by
    rw [maxOverWords_apply]; unfold maxWords; simp only [hv]
  have he : ∀ n t, exp (subf v (maxOverWords v)) (ix3 b n t) = Ideal.exp (s n t - maxWords s n) := fun n t => by
    show Ideal.exp (v (ix3 b n t) - maxOverWords v (ix3 b n t)) = _
    rw [hv, hm]
  show Ideal.div (exp (subf v (maxOverWords v)) (ix3 b n t)) (sumOverWords (exp (subf v (maxOverWords v))) (ix3 b n t)) = _
  rw [he, sumOverWords_apply]; unfold softWords; simp only [he]

/-- The block's softmax over the regions, on pair `b`, is the softmax over the regions of pair `b`'s entries. -/
theorem softmaxRegions_apply (q : FVec Ideal S8x289x32 .f32) (b : Fin 8) (s : Fin 289 → Fin 32 → EReal)
    (hq : ∀ n t, q (ix3 b n t) = s n t) (n : Fin 289) (t : Fin 32) :
    softmaxRegions q (ix3 b n t) = softRegions s n t := by
  have hm : ∀ n t, maxOverRegions q (ix3 b n t) = maxRegions s t := fun n t => by
    rw [maxOverRegions_apply]; unfold maxRegions; simp only [hq]
  have he : ∀ n t, exp (subf q (maxOverRegions q)) (ix3 b n t) = Ideal.exp (s n t - maxRegions s t) := fun n t => by
    show Ideal.exp (q (ix3 b n t) - maxOverRegions q (ix3 b n t)) = _
    rw [hq, hm]
  show Ideal.div (exp (subf q (maxOverRegions q)) (ix3 b n t)) (sumOverRegions (exp (subf q (maxOverRegions q))) (ix3 b n t)) = _
  rw [he, sumOverRegions_apply]; unfold softRegions; simp only [he]

/-! ## The stored value at an index -/

/-- Entry `(b, d, t)` of the stored value is the attention of pair `b` at `(d, t)`. -/
theorem payload_apply (x0 : Vec Ideal S8x289x1024 .f32) (x1 : Vec Ideal S8x32x1024 .f32) (b : Fin 8) (d : Fin 1024) (t : Fin 32) :
    Gen.k0_pay1 x0 x1 (ix3 b d t) = attend (regionsOf x0 b) (wordsOf x1 b) d t := by
  rw [payload_eq, weighted_apply]
  unfold attend weights
  refine Finset.sum_congr rfl fun n _ => congrArg (· * x0 (ix3 b n d)) ?_
  refine softmaxRegions_apply _ b _ (fun n t => ?_) n t
  show gamma * softmaxWords (scores x0 x1) (ix3 b n t) = gamma * softWords (score (regionsOf x0 b) (wordsOf x1 b)) n t
  exact congrArg (gamma * ·) (softmaxWords_apply _ b _ (scores_apply x0 x1 b) n t)

end Cert.KernelIdeal.Body

end
-- ==== Proof.KernelArray.lean ====
/-
  From the blocks to the whole array: after the kernel's run the result array is `result` of the reshaped image
  array and the word array.

  The grid has 16 points; point `t` works on pairs `8·t … 8·t + 7`: all three windows move along the first axis
  only, one block of 8 per point, and take the other two axes whole.  So the block a point reads of the image
  features and of the word features holds exactly the rows of the 8 pairs whose results it writes, and since every
  pair is treated by itself (`KernelBody`), what the point writes back is the block of `result` of the whole arrays.
  The 16 blocks tile the result array, so it ends as `result` everywhere.  The image features reach the kernel
  through a reshape of `[128, 17, 17, 1024]` to `[128, 289, 1024]` done before the launch.
-/
import proofs.«119860_j85280870629865_1_alg».proof.Proof.Gen.KernelIdeal.Value
import proofs.«119860_j85280870629865_1_alg».proof.Proof.KernelBody
import Idealize.ShloMosaic.Lib.StableHlo.Run

set_option maxRecDepth 16384

noncomputable section

namespace Cert.WordRegion

open Idealize.ShloMosaic Idealize.ShloMosaic.ValueIdx

/-- A block of 8 pairs out of 128, starting at pair `8·q`, has as its result the corresponding block of the whole
    result: entry `j` of the block's result is entry `i` of the whole one when `i` is `j` moved `8·q` pairs along. -/
theorem result_block (X : (⟨3, ![128, 289, 1024]⟩ : Shape).Idx → EReal) (Y : (⟨3, ![128, 32, 1024]⟩ : Shape).Idx → EReal)
    (x : (⟨3, ![8, 289, 1024]⟩ : Shape).Idx → EReal) (y : (⟨3, ![8, 32, 1024]⟩ : Shape).Idx → EReal) (q : ℕ)
    (hx : ∀ (b : Fin 8) (B : Fin 128) (n : Fin 289) (d : Fin 1024), B.val = q * 8 + b.val → x (ix3 b n d) = X (ix3 B n d))
    (hy : ∀ (b : Fin 8) (B : Fin 128) (t : Fin 32) (d : Fin 1024), B.val = q * 8 + b.val → y (ix3 b t d) = Y (ix3 B t d))
    (b : Fin 8) (B : Fin 128) (d : Fin 1024) (t : Fin 32) (hB : B.val = q * 8 + b.val) :
    result x y (ix3 b d t) = result X Y (ix3 B d t) := by
  rw [result_ix3, result_ix3]
  have e0 : regionsOf x b = regionsOf X B := funext fun n => funext fun d => hx b B n d hB
  have e1 : wordsOf y b = wordsOf Y B := funext fun t => funext fun d => hy b B t d hB
  rw [e0, e1]

end Cert.WordRegion

namespace Cert.KernelIdeal.Whole

open Cert.KernelIdeal Cert.KernelIdeal.Gen Idealize.ShloMosaic Idealize.ShloMosaic.TcCoe Idealize.SL.Sem
open Idealize.ShloMosaic.ValueIdx Cert.WordRegion
open Idealize.ShloMosaic.Pipeline (Dat)

variable (m : (ℓ : Loc nD τ sig) → Buf (Elt Ideal) ℓ) (ρ : Dev nD → PrngReg)

/-- The stored value of a block is `result` of the block's two input blocks. -/
theorem payload_result (x0 : Vec Ideal S8x289x1024 .f32) (x1 : Vec Ideal S8x32x1024 .f32) :
    k0_pay1 x0 x1 = result (B := 8) x0 x1 := by
  funext j
  obtain ⟨b, d, t, rfl⟩ : ∃ (b : Fin 8) (d : Fin 1024) (t : Fin 32), j = ix3 b d t := ⟨j 0, j 1, j 2, eq_ix3 j⟩
  exact Body.payload_apply x0 x1 b d t

theorem hz : (![0, 0, 0] : Fin 3 → Nat) = fun _ => 0 := funext fun a => by fin_cases a <;> rfl

/-- The result array as one function of the arrays the region finds. -/
abbrev whole (c : Dev nD) : S128x1024x32.Idx → Elt Ideal .f32 :=
  result (B := 128) (V m c main_v0) (V m c main_arg1)

/-- The index maps, decided over the 16 points: all three windows sit at the same block along the pairs, and at
    block 0 along the other two axes. -/
theorem index_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0
    ∧ win0_2.index t (0 : Fin 3) ≤ 15 :=
  (by decide +kernel : ∀ t : Fin grid0.N, _)

/-- Every block of 8 pairs is some point's. -/
theorem index_onto : ∀ q : Fin 16, ∃ t : Fin cfg0.N, win0_2.index t = ![q.val, 0, 0] :=
  (by decide +kernel : ∀ q : Fin 16, ∃ t : Fin grid0.N, win0_2.index t = ![q.val, 0, 0])

/-- The image-feature block at point `t`: the rows of the pairs the point works on. -/
theorem regions_block (c : Dev nD) (t : Fin cfg0.N) (b : Fin 8) (B : Fin 128) (n : Fin 289) (d : Fin 1024)
    (hB : B.val = win0_2.index t (0 : Fin 3) * 8 + b.val) :
    iblk m c 0 t (ix3 b n d) = V m c main_v0 (ix3 B n d) := by
  obtain ⟨e0, e1, e2, -⟩ := index_facts t
  show V m c main_v0 (((cfg0.win 0).blk t).view.emb (ix3 b n d)) = V m c main_v0 (ix3 B n d)
  refine congrArg (V m c main_v0) (funext fun a => Fin.ext ?_)
  match a with
  | ⟨0, _⟩ => show win0_0.index t (0 : Fin 3) * 8 + 1 * b.val = B.val; omega
  | ⟨1, _⟩ => show win0_0.index t (1 : Fin 3) * 289 + 1 * n.val = n.val; omega
  | ⟨2, _⟩ => show win0_0.index t (2 : Fin 3) * 1024 + 1 * d.val = d.val; omega

/-- The word-feature block at point `t`: the rows of the pairs the point works on. -/
theorem words_block (c : Dev nD) (t : Fin cfg0.N) (b : Fin 8) (B : Fin 128) (k : Fin 32) (d : Fin 1024)
    (hB : B.val = win0_2.index t (0 : Fin 3) * 8 + b.val) :
    iblk m c 1 t (ix3 b k d) = V m c main_arg1 (ix3 B k d) := by
  obtain ⟨-, -, -, e0, e1, e2, -⟩ := index_facts t
  show V m c main_arg1 (((cfg0.win 1).blk t).view.emb (ix3 b k d)) = V m c main_arg1 (ix3 B k d)
  refine congrArg (V m c main_arg1) (funext fun a => Fin.ext ?_)
  match a with
  | ⟨0, _⟩ => show win0_1.index t (0 : Fin 3) * 8 + 1 * b.val = B.val; omega
  | ⟨1, _⟩ => show win0_1.index t (1 : Fin 3) * 32 + 1 * k.val = k.val; omega
  | ⟨2, _⟩ => show win0_1.index t (2 : Fin 3) * 1024 + 1 * d.val = d.val; omega

/-- What point `t` writes back is block `t` of `whole`. -/
theorem flushed_eq (c : Dev nD) (t : Fin cfg0.N) :
    (dats m 0 c).flushed 2 t = ((cfg0.win 2).blk t).view.read (Elt Ideal) (whole m c) := by
  rw [Value.flushed2]
  unfold out0_2
  rw [View.canon_unit_zero hz]
  simp only [View.ld_unit_zero (S := S8x289x1024) hz, View.ld_unit_zero (S := S8x32x1024) hz]
  rw [payload_result]
  obtain ⟨-, -, -, -, -, -, e1, e2, e3⟩ := index_facts t
  funext j
  obtain ⟨b, d, k, rfl⟩ : ∃ (b : Fin 8) (d : Fin 1024) (k : Fin 32), j = ix3 b d k := ⟨j 0, j 1, j 2, eq_ix3 j⟩
  show result (B := 8) (iblk m c 0 t) (iblk m c 1 t) (ix3 b d k)
    = result (B := 128) (V m c main_v0) (V m c main_arg1) (((cfg0.win 2).blk t).view.emb (ix3 b d k))
  have hB : win0_2.index t (0 : Fin 3) * 8 + b.val < 128 := by have := b.isLt; omega
  have ei : ((cfg0.win 2).blk t).view.emb (ix3 b d k) = ix3 (⟨win0_2.index t (0 : Fin 3) * 8 + b.val, hB⟩ : Fin 128) d k :=
    funext fun a => Fin.ext (by
      match a with
      | ⟨0, _⟩ => show win0_2.index t (0 : Fin 3) * 8 + 1 * b.val = win0_2.index t (0 : Fin 3) * 8 + b.val; omega
      | ⟨1, _⟩ => show win0_2.index t (1 : Fin 3) * 1024 + 1 * d.val = d.val; omega
      | ⟨2, _⟩ => show win0_2.index t (2 : Fin 3) * 32 + 1 * k.val = k.val; omega)
  rw [ei]
  exact result_block _ _ _ _ (win0_2.index t (0 : Fin 3))
    (fun b B n d h => regions_block m c t b B n d h) (fun b B k d h => words_block m c t b B k d h) b _ d k rfl

/-- An index of the result array is in point `t`'s block iff each coordinate is in the block's range on its axis. -/
theorem mem_blk (t : Fin cfg0.N) (i : S128x1024x32.Idx) :
    i ∈ ((cfg0.win 2).blk t).view.set ↔ ∀ a : Fin 3, win0_2.index t a * S8x1024x32.size a ≤ (i a).val
      ∧ (i a).val < win0_2.index t a * S8x1024x32.size a + S8x1024x32.size a := by
  show i ∈ ((View.whole main_v1).slice (win0_2.rect t)).set ↔ _
  rw [View.set_slice_whole, Rect.mem_set_unit]
  exact Iff.rfl

/-- Every index of the result array is in some point's block: pair `B` is in block `B / 8`. -/
theorem cover (i : S128x1024x32.Idx) :
    ∃ t : Fin cfg0.N, (cfg0.win 2).flush t = true ∧ i ∈ ((cfg0.win 2).blk t).view.set := by
  have hi0 : (i 0).val < 128 := (i 0).isLt
  have hi1 : (i 1).val < 1024 := (i 1).isLt
  have hi2 : (i 2).val < 32 := (i 2).isLt
  obtain ⟨t, ht⟩ := index_onto ⟨(i 0).val / 8, by omega⟩
  have q0 : win0_2.index t (0 : Fin 3) = (i 0).val / 8 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 32 ≤ (i 2).val ∧ (i 2).val < win0_2.index t (2 : Fin 3) * 32 + 32; omega

/-- The result array after the run is `whole`. -/
theorem final (c : Dev nD) : (dats m 0 c).arrAt 2 cfg0.N = whole m c :=
  (dats m 0 c).arrAt_eq_of_cover 2 (whole m c) (fun t _ => flushed_eq m c t) (cover)

/-- The array window 0 reads is the image array reshaped to `[128, 289, 1024]` before the launch. -/
theorem V_main_v0 (c : Dev nD) :
    (V m c main_v0 : S128x289x1024.Idx → Elt Ideal .f32)
      = shapeCast S128x289x1024 (m ((c : Thread nD τ).loc main_arg0)) Facts₀.shapeCasts_S128x17x17x1024_S128x289x1024 := by
  dsimp only [Gen.V, Gen.hostOps0]
  after_results
  rfl

/-- The kernel's run with the result array named: `result` of the reshaped image array and the word array; the
    arguments unchanged. -/
theorem run : θ_run defs (onTc (τ := τ) (main (F := Ideal))) ⟨m, fun _ => 0, ρ⟩ fun r => ∀ c : Dev nD,
      r.2.mem ((c : Thread nD τ).loc main_v1)
        = result (B := 128) (shapeCast S128x289x1024 (m ((c : Thread nD τ).loc main_arg0)) Facts₀.shapeCasts_S128x17x17x1024_S128x289x1024)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      show result (B := 128) (V m c main_v0) (V m c main_arg1) = _
      rw [V_main_v0, V_main_arg1])), (h c).2⟩)
    (Value.run_blocks m ρ)

end Cert.KernelIdeal.Whole

end
-- ==== Proof.ReferenceValue.lean ====
/-
  The reference's result, read stage by stage, is `result` of its two operand arrays.

  The reference computes, for all 128 pairs at once: the scores (a product contracting the 1024 features), a softmax
  over the last axis (the words), a transposition to `[128, 32, 289]`, the product with 4, a softmax over the last axis
  again (now the regions), and a product contracting the 289 regions whose left factor is the region features and
  whose right factor is the weights.  Read at an index, every stage only ever looks at the entries of the same pair
  `b`; so stage by stage the reference's arrays at pair `b` are the per-pair functions of `Attention`, the two
  host sums starting from the value of the zero pattern, and the last product's factors in the other order — the
  one place where commutativity of the product on the extended reals is used.
-/
import proofs.«119860_j85280870629865_1_alg».proof.Proof.Gen.ReferenceIdeal.Read
import proofs.«119860_j85280870629865_1_alg».proof.Proof.Attention
import proofs.«119860_j85280870629865_1_alg».proof.Proof.LibKeepdims

noncomputable section

namespace Cert.ReferenceIdeal.RefValue

open Cert.ReferenceIdeal Cert.ReferenceIdeal.Facts₀ Cert.ReferenceIdeal.Read Idealize.ShloMosaic Idealize.ShloMosaic.ValueIdx
open Idealize.ShloMosaic.Keepdims Cert.WordRegion

variable (x0 : (⟨S128x17x17x1024, .f32⟩ : BufTy).Contents (Elt Ideal)) (x1 : (⟨S128x32x1024, .f32⟩ : BufTy).Contents (Elt Ideal))

/-- Pair `b`'s scores, from the reference's reshaped image array and its word array. -/
abbrev pairScore (b : Fin 128) : Fin 289 → Fin 32 → EReal :=
  score (regionsOf (val_main_v0 (F := Ideal) x0) b) (wordsOf x1 b)

/-- Pair `b`'s first softmax multiplied by 4. -/
abbrev pairSharp (b : Fin 128) : Fin 289 → Fin 32 → EReal :=
  fun n t => gamma * softWords (pairScore x0 x1 b) n t

/-! ## The first softmax, over the words -/

theorem v1_at (b : Fin 128) (n : Fin 289) (t : Fin 32) :
    val_main_v1 (F := Ideal) x0 x1 (ix3 b n t) = pairScore x0 x1 b n t := by
  rw [val_main_v1_apply]
  unfold pairScore score
  refine Finset.sum_congr rfl fun k _ => ?_
  have el : lidx_main_v1 (ix3 b n t) k = ix3 b n k :=
    funext fun a => Fin.ext (by match a with | ⟨0, _⟩ => rfl | ⟨1, _⟩ => rfl | ⟨2, _⟩ => rfl)
  have er : ridx_main_v1 (ix3 b n t) k = ix3 b t k :=
    funext fun a => Fin.ext (by match a with | ⟨0, _⟩ => rfl | ⟨1, _⟩ => rfl | ⟨2, _⟩ => rfl)
  rw [el, er]

theorem v4_at (b : Fin 128) (n : Fin 289) :
    val_main_v4 (F := Ideal) x0 x1 (ix2 b n) = maxWords (pairScore x0 x1 b) n := by
  rw [val_main_v4_apply]
  unfold maxWords val_main_v2
  refine congrArg (max negInf) ?_
  refine (hostReduce_max_last (val_main_v1 (F := Ideal) x0 x1) (val_main_cst (F := Ideal))
    reducesTo_S128x289x32_S128x289_d2 (by decide) h_S_ b n).trans ?_
  simp only [v1_at]
  rfl

theorem v6_at (b : Fin 128) (n : Fin 289) (t : Fin 32) :
    val_main_v6 (F := Ideal) x0 x1 (ix3 b n t) = maxWords (pairScore x0 x1 b) n := by
  rw [val_main_v6_apply, val_main_v5_apply]
  have e : idx_main_v5 (idx_main_v6 (ix3 b n t)) = ix2 b n :=
    funext fun a => Fin.ext (by match a with | ⟨0, _⟩ => rfl | ⟨1, _⟩ => rfl)
  rw [e, v4_at]

theorem v8_at (b : Fin 128) (n : Fin 289) (t : Fin 32) :
    val_main_v8 (F := Ideal) x0 x1 (ix3 b n t) = Ideal.exp (pairScore x0 x1 b n t - maxWords (pairScore x0 x1 b) n) := by
  rw [val_main_v8_apply, val_main_v7_apply, v1_at, v6_at]
  rfl

theorem v9_at (b : Fin 128) (n : Fin 289) :
    val_main_v9 (F := Ideal) x0 x1 (ix2 b n)
      = ∑ t' : Fin 32, Ideal.exp (pairScore x0 x1 b n t' - maxWords (pairScore x0 x1 b) n) := by
  rw [val_main_v9_apply]
  have e : ∀ k : Fin 32, idx_main_v9 (ix2 b n) k = ix3 b n k := fun k =>
    funext fun a => Fin.ext (by match a with | ⟨0, _⟩ => rfl | ⟨1, _⟩ => rfl | ⟨2, _⟩ => rfl)
  simp only [e, v8_at]
  show Ideal.ofBits .f32 0x00000000#32 + _ = _
  rw [Ideal.ofBits_zero_f32, zero_add]

theorem v11_at (b : Fin 128) (n : Fin 289) (t : Fin 32) :
    val_main_v11 (F := Ideal) x0 x1 (ix3 b n t)
      = ∑ t' : Fin 32, Ideal.exp (pairScore x0 x1 b n t' - maxWords (pairScore x0 x1 b) n) := by
  rw [val_main_v11_apply, val_main_v10_apply]
  have e : idx_main_v10 (idx_main_v11 (ix3 b n t)) = ix2 b n :=
    funext fun a => Fin.ext (by match a with | ⟨0, _⟩ => rfl | ⟨1, _⟩ => rfl)
  rw [e, v9_at]

theorem v12_at (b : Fin 128) (n : Fin 289) (t : Fin 32) :
    val_main_v12 (F := Ideal) x0 x1 (ix3 b n t) = softWords (pairScore x0 x1 b) n t := by
  rw [val_main_v12_apply, v8_at, v11_at]
  rfl

/-! ## Transposed, multiplied by 4, and the second softmax, over the regions -/

theorem v15_at (b : Fin 128) (t : Fin 32) (n : Fin 289) :
    val_main_v15 (F := Ideal) x0 x1 (ix3 b t n) = pairSharp x0 x1 b n t := by
  rw [val_main_v15_apply, val_main_v14_apply, val_main_v13_apply]
  have e : idx_main_v13 (ix3 b t n) = ix3 b n t :=
    funext fun a => Fin.ext (by match a with | ⟨0, _⟩ => rfl | ⟨1, _⟩ => rfl | ⟨2, _⟩ => rfl)
  rw [e, v12_at]
  rfl

theorem v18_at (b : Fin 128) (t : Fin 32) :
    val_main_v18 (F := Ideal) x0 x1 (ix2 b t) = maxRegions (pairSharp x0 x1 b) t := by
  rw [val_main_v18_apply]
  unfold maxRegions val_main_v16
  refine congrArg (max negInf) ?_
  refine (hostReduce_max_last (val_main_v15 (F := Ideal) x0 x1) (val_main_cst_3 (F := Ideal))
    reducesTo_S128x32x289_S128x32_d2 (by decide) h_S_ b t).trans ?_
  simp only [v15_at]
  rfl

theorem v20_at (b : Fin 128) (t : Fin 32) (n : Fin 289) :
    val_main_v20 (F := Ideal) x0 x1 (ix3 b t n) = maxRegions (pairSharp x0 x1 b) t := by
  rw [val_main_v20_apply, val_main_v19_apply]
  have e : idx_main_v19 (idx_main_v20 (ix3 b t n)) = ix2 b t :=
    funext fun a => Fin.ext (by match a with | ⟨0, _⟩ => rfl | ⟨1, _⟩ => rfl)
  rw [e, v18_at]

theorem v22_at (b : Fin 128) (t : Fin 32) (n : Fin 289) :
    val_main_v22 (F := Ideal) x0 x1 (ix3 b t n) = Ideal.exp (pairSharp x0 x1 b n t - maxRegions (pairSharp x0 x1 b) t) := by
  rw [val_main_v22_apply, val_main_v21_apply, v15_at, v20_at]
  rfl

theorem v23_at (b : Fin 128) (t : Fin 32) :
    val_main_v23 (F := Ideal) x0 x1 (ix2 b t)
      = ∑ n' : Fin 289, Ideal.exp (pairSharp x0 x1 b n' t - maxRegions (pairSharp x0 x1 b) t) := by
  rw [val_main_v23_apply]
  have e : ∀ k : Fin 289, idx_main_v23 (ix2 b t) k = ix3 b t k := fun k =>
    funext fun a => Fin.ext (by match a with | ⟨0, _⟩ => rfl | ⟨1, _⟩ => rfl | ⟨2, _⟩ => rfl)
  simp only [e, v22_at]
  show Ideal.ofBits .f32 0x00000000#32 + _ = _
  rw [Ideal.ofBits_zero_f32, zero_add]

theorem v25_at (b : Fin 128) (t : Fin 32) (n : Fin 289) :
    val_main_v25 (F := Ideal) x0 x1 (ix3 b t n)
      = ∑ n' : Fin 289, Ideal.exp (pairSharp x0 x1 b n' t - maxRegions (pairSharp x0 x1 b) t) := by
  rw [val_main_v25_apply, val_main_v24_apply]
  have e : idx_main_v24 (idx_main_v25 (ix3 b t n)) = ix2 b t :=
    funext fun a => Fin.ext (by match a with | ⟨0, _⟩ => rfl | ⟨1, _⟩ => rfl)
  rw [e, v23_at]

/-- The reference's weights at `(b, t, n)` are pair `b`'s attention weights at `(n, t)`. -/
theorem v26_at (b : Fin 128) (t : Fin 32) (n : Fin 289) :
    val_main_v26 (F := Ideal) x0 x1 (ix3 b t n) = weights (regionsOf (val_main_v0 (F := Ideal) x0) b) (wordsOf x1 b) n t := by
  rw [val_main_v26_apply, v22_at, v25_at]
  rfl

/-! ## The result -/

/-- The reference's result is `result` of its reshaped image array and its word array. -/
theorem value_eq : val_main_v27 (F := Ideal) x0 x1 = result (B := 128) (val_main_v0 (F := Ideal) x0) x1 := by
  funext i
  obtain ⟨b, d, t, rfl⟩ : ∃ (b : Fin 128) (d : Fin 1024) (t : Fin 32), i = ix3 b d t := ⟨i 0, i 1, i 2, eq_ix3 i⟩
  rw [val_main_v27_apply, result_ix3]
  unfold attend
  refine Finset.sum_congr rfl fun k _ => ?_
  have el : lidx_main_v27 (ix3 b d t) k = ix3 b k d :=
    funext fun a => Fin.ext (by match a with | ⟨0, _⟩ => rfl | ⟨1, _⟩ => rfl | ⟨2, _⟩ => rfl)
  have er : ridx_main_v27 (ix3 b d t) k = ix3 b t k :=
    funext fun a => Fin.ext (by match a with | ⟨0, _⟩ => rfl | ⟨1, _⟩ => rfl | ⟨2, _⟩ => rfl)
  rw [el, er, v26_at]
  exact mul_comm _ _

end Cert.ReferenceIdeal.RefValue

end
-- ==== Proof.lean ====
/-
  A Pallas kernel for word–region attention against its jnp reference, equal on the extended reals.

  Inputs: image features `[128, 17, 17, 1024]` (read as 289 regions of 1024 features per image) and word features
  `[128, 32, 1024]`.  For each of the 128 image–caption pairs both programs compute the region–word scores
  `s n t = Σ_d a n d · w t d`, a softmax over the words, the product with 4, a softmax over the regions, and the
  weighted sum `out d t = Σ_n p n t · a n d` (`Attention`: `attend`, and `result` for the stack of pairs).

  The kernel does this 8 pairs at a time over a grid of 16 points, rounding its matrix operands to a narrower float
  format (the identity on the extended reals) and accumulating both products into zero; the reference does it for all
  pairs at once, transposes the weights before the second softmax, and multiplies the last product's factors in the
  other order.  `KernelBody` reads what one grid point stores, `KernelArray` puts the 16 blocks together into the whole
  result array, `ReferenceValue` reads the reference stage by stage; both end at the same function `result` of the
  reshaped image array and the word array.  The only algebraic law used between the two sides is commutativity of
  the product; finiteness of the inputs is not needed.

  The three frames are the programs' runs with the results forgotten; the idealization rewrote nothing, so the
  `preserves` conjunct is `True`.
-/
import proofs.«119860_j85280870629865_1_alg».proof.Defs
import proofs.«119860_j85280870629865_1_alg».proof.Proof.Gen.Kernel
import proofs.«119860_j85280870629865_1_alg».proof.Proof.Gen.Kernel.Skeleton
import proofs.«119860_j85280870629865_1_alg».proof.Proof.Gen.Kernel.Launch
import proofs.«119860_j85280870629865_1_alg».proof.Proof.Gen.Kernel.Points
import proofs.«119860_j85280870629865_1_alg».proof.Proof.Gen.Kernel.Frame
import proofs.«119860_j85280870629865_1_alg».proof.Proof.Gen.KernelIdeal
import proofs.«119860_j85280870629865_1_alg».proof.Proof.Gen.KernelIdeal.Skeleton
import proofs.«119860_j85280870629865_1_alg».proof.Proof.Gen.KernelIdeal.Launch
import proofs.«119860_j85280870629865_1_alg».proof.Proof.Gen.KernelIdeal.Points
import proofs.«119860_j85280870629865_1_alg».proof.Proof.Gen.KernelIdeal.Frame
import proofs.«119860_j85280870629865_1_alg».proof.Proof.Gen.ReferenceIdeal
import proofs.«119860_j85280870629865_1_alg».proof.Proof.Gen.Pre_finite_inputs
import proofs.«119860_j85280870629865_1_alg».proof.Proof.Gen.KernelIdeal.Value
import proofs.«119860_j85280870629865_1_alg».proof.Proof.Gen.ReferenceIdeal.Run
import proofs.«119860_j85280870629865_1_alg».proof.Proof.Gen.ReferenceIdeal.Read
import proofs.«119860_j85280870629865_1_alg».proof.Proof.KernelArray
import proofs.«119860_j85280870629865_1_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, the kernel's result array and the reference's both end at `result` of
    the reshaped image array and the word array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.value_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
